-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8x1024x32 : Shape := ⟨4, ![8, 8, 1024, 32]⟩
abbrev S8x8x1024x1024 : Shape := ⟨4, ![8, 8, 1024, 1024]⟩
abbrev S_ : Shape := ⟨0, ![]⟩

class Facts : Prop where
  bcast_S_S8x8x1024x32 : S_.BroadcastsInDim S8x8x1024x32 (![] : Fin 0 → Fin S8x8x1024x32.rank)
  reducesTo_S8x8x1024x32_S_d0_1_2_3 : S8x8x1024x32.ReducesTo [0, 1, 2, 3] S_
  h_S_ : 0 < S_.numel
  bcast_S_S8x8x1024x1024 : S_.BroadcastsInDim S8x8x1024x1024 (![] : Fin 0 → Fin S8x8x1024x1024.rank)
  reducesTo_S8x8x1024x1024_S_d0_1_2_3 : S8x8x1024x1024.ReducesTo [0, 1, 2, 3] S_

variable [Facts]

def fn_part1 {F : FTy → Type} [FloatOps F] (main_v13 : IVec S_ 1) (main_v16 : IVec S8x8x1024x1024 1) : IVec S_ 1 :=
  let main_c_5 : IVec S_ 1 := constantI S_ 1 1#1
  let main_v17 : IVec S_ 1 := (fun x v => Host.reduce IntOp.andi x v reducesTo_S8x8x1024x1024_S_d0_1_2_3 h_S_) main_v16 main_c_5
  let main_v18 : IVec S_ 1 := andi main_v13 main_v17
  main_v18

def fn {F : FTy → Type} [FloatOps F] (main_arg0 : FVec F S8x8x1024x32 .f32) (main_arg1 : FVec F S8x8x1024x32 .f32) (main_arg2 : FVec F S8x8x1024x32 .f32) (main_arg3 : IVec S8x8x1024x1024 1) (main_arg4 : FVec F S8x8x1024x1024 .f32) : IVec S_ 1 :=
  let main_v0 : FVec F S8x8x1024x32 .f32 := Host.absf main_arg0
  let main_cst : FVec F S_ .f32 := constant S_ .f32 0x7F800000#32
  let main_v1 : FVec F S8x8x1024x32 .f32 := broadcastInDim S8x8x1024x32 ![] bcast_S_S8x8x1024x32 main_cst
  let main_v2 : IVec S8x8x1024x32 1 := cmpf .olt main_v0 main_v1
  let main_c : IVec S_ 1 := constantI S_ 1 1#1
  let main_v3 : IVec S_ 1 := (fun x v => Host.reduce IntOp.andi x v reducesTo_S8x8x1024x32_S_d0_1_2_3 h_S_) main_v2 main_c
  let main_v4 : FVec F S8x8x1024x32 .f32 := Host.absf main_arg1
  let main_cst_0 : FVec F S_ .f32 := constant S_ .f32 0x7F800000#32
  let main_v5 : FVec F S8x8x1024x32 .f32 := broadcastInDim S8x8x1024x32 ![] bcast_S_S8x8x1024x32 main_cst_0
  let main_v6 : IVec S8x8x1024x32 1 := cmpf .olt main_v4 main_v5
  let main_c_1 : IVec S_ 1 := constantI S_ 1 1#1
  let main_v7 : IVec S_ 1 := (fun x v => Host.reduce IntOp.andi x v reducesTo_S8x8x1024x32_S_d0_1_2_3 h_S_) main_v6 main_c_1
  let main_v8 : IVec S_ 1 := andi main_v3 main_v7
  let main_v9 : FVec F S8x8x1024x32 .f32 := Host.absf main_arg2
  let main_cst_2 : FVec F S_ .f32 := constant S_ .f32 0x7F800000#32
  let main_v10 : FVec F S8x8x1024x32 .f32 := broadcastInDim S8x8x1024x32 ![] bcast_S_S8x8x1024x32 main_cst_2
  let main_v11 : IVec S8x8x1024x32 1 := cmpf .olt main_v9 main_v10
  let main_c_3 : IVec S_ 1 := constantI S_ 1 1#1
  let main_v12 : IVec S_ 1 := (fun x v => Host.reduce IntOp.andi x v reducesTo_S8x8x1024x32_S_d0_1_2_3 h_S_) main_v11 main_c_3
  let main_v13 : IVec S_ 1 := andi main_v8 main_v12
  let main_v14 : FVec F S8x8x1024x1024 .f32 := Host.absf main_arg4
  let main_cst_4 : FVec F S_ .f32 := constant S_ .f32 0x7F800000#32
  let main_v15 : FVec F S8x8x1024x1024 .f32 := broadcastInDim S8x8x1024x1024 ![] bcast_S_S8x8x1024x1024 main_cst_4
  let main_v16 : IVec S8x8x1024x1024 1 := cmpf .olt main_v14 main_v15
  fn_part1 (F := F) main_v13 main_v16
-- ==== Kernel.lean ====
abbrev S8x8x1024x32 : Shape := ⟨4, ![8, 8, 1024, 32]⟩
abbrev S8x8x1024x1024 : Shape := ⟨4, ![8, 8, 1024, 1024]⟩
abbrev S1x1x1024x32 : Shape := ⟨4, ![1, 1, 1024, 32]⟩
abbrev S1x1x1024x1024 : Shape := ⟨4, ![1, 1, 1024, 1024]⟩
abbrev S1024x32 : Shape := ⟨2, ![1024, 32]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 8
  | .vmem => 14
  | .smem => 0
  | _ => 0

abbrev bufTy : (tb : Table) → Fin (tcTables nBuf tb) → BufTy
  | .hbm, ⟨0, _⟩ => ⟨S8x8x1024x32, .f32⟩
  | .hbm, ⟨1, _⟩ => ⟨S8x8x1024x32, .f32⟩
  | .hbm, ⟨2, _⟩ => ⟨S8x8x1024x32, .f32⟩
  | .hbm, ⟨3, _⟩ => ⟨S8x8x1024x1024, .i1⟩
  | .hbm, ⟨4, _⟩ => ⟨S8x8x1024x1024, .f32⟩
  | .hbm, ⟨5, _⟩ => ⟨S8x8x1024x1024, .i32⟩
  | .hbm, ⟨6, _⟩ => ⟨S8x8x1024x32, .f32⟩
  | .hbm, ⟨7, _⟩ => ⟨S8x8x1024x1024, .f32⟩
  | .local _ .vmem, ⟨0, _⟩ => ⟨S1x1x1024x32, .f32⟩
  | .local _ .vmem, ⟨1, _⟩ => ⟨S1x1x1024x32, .f32⟩
  | .local _ .vmem, ⟨2, _⟩ => ⟨S1x1x1024x32, .f32⟩
  | .local _ .vmem, ⟨3, _⟩ => ⟨S1x1x1024x32, .f32⟩
  | .local _ .vmem, ⟨4, _⟩ => ⟨S1x1x1024x32, .f32⟩
  | .local _ .vmem, ⟨5, _⟩ => ⟨S1x1x1024x32, .f32⟩
  | .local _ .vmem, ⟨6, _⟩ => ⟨S1x1x1024x1024, .i32⟩
  | .local _ .vmem, ⟨7, _⟩ => ⟨S1x1x1024x1024, .i32⟩
  | .local _ .vmem, ⟨8, _⟩ => ⟨S1x1x1024x1024, .f32⟩
  | .local _ .vmem, ⟨9, _⟩ => ⟨S1x1x1024x1024, .f32⟩
  | .local _ .vmem, ⟨10, _⟩ => ⟨S1x1x1024x32, .f32⟩
  | .local _ .vmem, ⟨11, _⟩ => ⟨S1x1x1024x32, .f32⟩
  | .local _ .vmem, ⟨12, _⟩ => ⟨S1x1x1024x1024, .f32⟩
  | .local _ .vmem, ⟨13, _⟩ => ⟨S1x1x1024x1024, .f32⟩
  | _, _ => ⟨S8x8x1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  natLt_1_32 : 1 < 32
  inb_S1x1x1024x32_S1x1x1024x32_0_0_0_0 : ∀ a, (![0, 0, 0, 0] : Fin 4 → Nat) a + S1x1x1024x32.size a ≤ S1x1x1024x32.size a
  h_S1x1x1024x32 : 0 < S1x1x1024x32.numel
  shapeCasts_S1x1x1024x32_S1024x32 : S1x1x1024x32.ShapeCasts S1024x32
  inb_S1x1x1024x1024_S1x1x1024x1024_0_0_0_0 : ∀ a, (![0, 0, 0, 0] : Fin 4 → Nat) a + S1x1x1024x1024.size a ≤ S1x1x1024x1024.size a
  h_S1x1x1024x1024 : 0 < S1x1x1024x1024.numel
  shapeCasts_S1x1x1024x1024_S1024x1024 : S1x1x1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  shapeCasts_S1024x32_S1x1x1024x32 : S1024x32.ShapeCasts S1x1x1024x32
  shapeCasts_S1024x1024_S1x1x1024x1024 : S1024x1024.ShapeCasts S1x1x1024x1024
  dot_S1024x32_S1024x32_S1024x1024_1_1_0_0_n_n_wf : DotDims.WF S1024x32 S1024x32 S1024x1024 [1] [1] [0] [0] [] []
  dot_S1024x1024_S1024x32_S1024x32_1_0_0_1_n_n_wf : DotDims.WF S1024x1024 S1024x32 S1024x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x32.size a ≤ S8x8x1024x32.size a
  hwx0_0 : ∀ i : grid0.Coords, EltTy.bits .f32 = 32 ∨ (Rect.block (s := S8x8x1024x32) S1x1x1024x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x32.size a ≤ S8x8x1024x32.size a
  hwx0_1 : ∀ i : grid0.Coords, EltTy.bits .f32 = 32 ∨ (Rect.block (s := S8x8x1024x32) S1x1x1024x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024x32.size a ≤ S8x8x1024x32.size a
  hwx0_2 : ∀ i : grid0.Coords, EltTy.bits .f32 = 32 ∨ (Rect.block (s := S8x8x1024x32) S1x1x1024x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024x1024.size a ≤ S8x8x1024x1024.size a
  hwx0_3 : ∀ i : grid0.Coords, EltTy.bits .i32 = 32 ∨ (Rect.block (s := S8x8x1024x1024) S1x1x1024x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024x1024.size a ≤ S8x8x1024x1024.size a
  hwx0_4 : ∀ i : grid0.Coords, EltTy.bits .f32 = 32 ∨ (Rect.block (s := S8x8x1024x1024) S1x1x1024x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024x32.size a ≤ S8x8x1024x32.size a
  hwx0_5 : ∀ i : grid0.Coords, EltTy.bits .f32 = 32 ∨ (Rect.block (s := S8x8x1024x32) S1x1x1024x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1024x1024.size a ≤ S8x8x1024x1024.size a
  hwx0_6 : ∀ i : grid0.Coords, EltTy.bits .f32 = 32 ∨ (Rect.block (s := S8x8x1024x1024) S1x1x1024x1024.size (cc0_transform_6 i) (hinb0_6 i)).WholeWords (EltTy.packing .f32)

variable [Facts₀]

def dot_S1024x32_S1024x32_S1024x1024_1_1_0_0_n_n : DotDims S1024x32 S1024x32 S1024x1024 where
  lhsContracting := [1]
  rhsContracting := [1]
  lhsNonContracting := [0]
  rhsNonContracting := [0]
  lhsBatch := []
  rhsBatch := []
  wf := dot_S1024x32_S1024x32_S1024x1024_1_1_0_0_n_n_wf
def dot_S1024x1024_S1024x32_S1024x32_1_0_0_1_n_n : DotDims S1024x1024 S1024x32 S1024x32 where
  lhsContracting := [1]
  rhsContracting := [0]
  lhsNonContracting := [0]
  rhsNonContracting := [1]
  lhsBatch := []
  rhsBatch := []
  wf := dot_S1024x1024_S1024x32_S1024x32_1_0_0_1_n_n_wf

abbrev win0_0 : Pipeline.Window sig grid0 :=
  Pipeline.Window.ofSpec (Memref.whole main_arg0) S1x1x1024x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x1024x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x1024x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1x1024x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_0) S1x1x1024x32.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_1) S1x1x1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x8x1024x32 : Shape := ⟨4, ![8, 8, 1024, 32]⟩
abbrev S8x8x1024x1024 : Shape := ⟨4, ![8, 8, 1024, 1024]⟩
abbrev S_ : Shape := ⟨0, ![]⟩
abbrev S8x8x1024 : Shape := ⟨3, ![8, 8, 1024]⟩
abbrev S8x8x1024x1 : Shape := ⟨4, ![8, 8, 1024, 1]⟩

abbrev nBuf : Space → Nat
  | .hbm => 28
  | .vmem => 0
  | .smem => 0
  | _ => 0

abbrev bufTy : (tb : Table) → Fin (tcTables nBuf tb) → BufTy
  | .hbm, ⟨0, _⟩ => ⟨S8x8x1024x32, .f32⟩
  | .hbm, ⟨1, _⟩ => ⟨S8x8x1024x32, .f32⟩
  | .hbm, ⟨2, _⟩ => ⟨S8x8x1024x32, .f32⟩
  | .hbm, ⟨3, _⟩ => ⟨S8x8x1024x1024, .i1⟩
  | .hbm, ⟨4, _⟩ => ⟨S8x8x1024x1024, .f32⟩
  | .hbm, ⟨5, _⟩ => ⟨S8x8x1024x1024, .f32⟩
  | .hbm, ⟨6, _⟩ => ⟨S_, .f32⟩
  | .hbm, ⟨7, _⟩ => ⟨S8x8x1024x1024, .f32⟩
  | .hbm, ⟨8, _⟩ => ⟨S8x8x1024x1024, .f32⟩
  | .hbm, ⟨9, _⟩ => ⟨S8x8x1024x1024, .f32⟩
  | .hbm, ⟨10, _⟩ => ⟨S_, .f32⟩
  | .hbm, ⟨11, _⟩ => ⟨S8x8x1024x1024, .f32⟩
  | .hbm, ⟨12, _⟩ => ⟨S8x8x1024x1024, .f32⟩
  | .hbm, ⟨13, _⟩ => ⟨S_, .f32⟩
  | .hbm, ⟨14, _⟩ => ⟨S8x8x1024, .f32⟩
  | .hbm, ⟨15, _⟩ => ⟨S_, .f32⟩
  | .hbm, ⟨16, _⟩ => ⟨S8x8x1024, .f32⟩
  | .hbm, ⟨17, _⟩ => ⟨S8x8x1024, .f32⟩
  | .hbm, ⟨18, _⟩ => ⟨S8x8x1024x1, .f32⟩
  | .hbm, ⟨19, _⟩ => ⟨S8x8x1024x1024, .f32⟩
  | .hbm, ⟨20, _⟩ => ⟨S8x8x1024x1024, .f32⟩
  | .hbm, ⟨21, _⟩ => ⟨S8x8x1024x1024, .f32⟩
  | .hbm, ⟨22, _⟩ => ⟨S_, .f32⟩
  | .hbm, ⟨23, _⟩ => ⟨S8x8x1024, .f32⟩
  | .hbm, ⟨24, _⟩ => ⟨S8x8x1024x1, .f32⟩
  | .hbm, ⟨25, _⟩ => ⟨S8x8x1024x1024, .f32⟩
  | .hbm, ⟨26, _⟩ => ⟨S8x8x1024x1024, .f32⟩
  | .hbm, ⟨27, _⟩ => ⟨S8x8x1024x32, .f32⟩
  | _, _ => ⟨S8x8x1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_call0_v0 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]

class Facts₀ : Prop where
  bcast_S_S8x8x1024x1024 : S_.BroadcastsInDim S8x8x1024x1024 (![] : Fin 0 → Fin S8x8x1024x1024.rank)
  reducesTo_S8x8x1024x1024_S8x8x1024_d3 : S8x8x1024x1024.ReducesTo [3] S8x8x1024
  h_S_ : 0 < S_.numel
  bcast_S_S8x8x1024 : S_.BroadcastsInDim S8x8x1024 (![] : Fin 0 → Fin S8x8x1024.rank)
  bcast_S8x8x1024_S8x8x1024x1_0_1_2 : S8x8x1024.BroadcastsInDim S8x8x1024x1 (![0, 1, 2] : Fin 3 → Fin S8x8x1024x1.rank)
  bcast_S8x8x1024x1_S8x8x1024x1024_0_1_2_3 : S8x8x1024x1.BroadcastsInDim S8x8x1024x1024 (![0, 1, 2, 3] : Fin 4 → Fin S8x8x1024x1024.rank)
  dot_S8x8x1024x32_S8x8x1024x32_S8x8x1024x1024_3_3_2_2_01_01_wf : DotDims.WF S8x8x1024x32 S8x8x1024x32 S8x8x1024x1024 [3] [3] [2] [2] [0, 1] [0, 1]
  dot_S8x8x1024x1024_S8x8x1024x32_S8x8x1024x32_3_2_2_3_01_01_wf : DotDims.WF S8x8x1024x1024 S8x8x1024x32 S8x8x1024x32 [3] [2] [2] [3] [0, 1] [0, 1]

variable [Facts₀]

def dot_S8x8x1024x32_S8x8x1024x32_S8x8x1024x1024_3_3_2_2_01_01 : DotDims S8x8x1024x32 S8x8x1024x32 S8x8x1024x1024 where
  lhsContracting := [3]
  rhsContracting := [3]
  lhsNonContracting := [2]
  rhsNonContracting := [2]
  lhsBatch := [0, 1]
  rhsBatch := [0, 1]
  wf := dot_S8x8x1024x32_S8x8x1024x32_S8x8x1024x1024_3_3_2_2_01_01_wf
def dot_S8x8x1024x1024_S8x8x1024x32_S8x8x1024x32_3_2_2_3_01_01 : DotDims S8x8x1024x1024 S8x8x1024x32 S8x8x1024x32 where
  lhsContracting := [3]
  rhsContracting := [2]
  lhsNonContracting := [2]
  rhsNonContracting := [3]
  lhsBatch := [0, 1]
  rhsBatch := [0, 1]
  wf := dot_S8x8x1024x1024_S8x8x1024x32_S8x8x1024x32_3_2_2_3_01_01_wf

class Facts : Prop extends Facts₀ where

variable [Facts]
-- ==== Proof.Attention.lean ====
/-
  Masked softmax attention with an additive bias, on the extended reals.

  For one (batch, head) pair the inputs are a query slab `q` and a key slab `k` (1024 rows of 32 features each), a value
  slab `v` of the same shape, a bias slab `r` and a one-bit mask slab `msk` (1024 × 1024 each). The score of query row
  `i` against key row `j` is the dot product of the two rows times a fixed scale, plus the bias entry; where the mask bit
  is set the score is replaced by a fixed large negative fill. Each row of scores is shifted by its maximum, exponentiated
  and divided by the row's sum of exponentials: the attention probabilities. The context is the probability-weighted sum of
  the value rows. Every operation is the exact one on the extended reals and nothing here uses that an entry is finite.

  The whole arrays carry a batch axis and a head axis of extent 8 in front; `slab` fixes the two leading coordinates.
-/
import Idealize.ShloMosaic.PureOps.Ideal
import Idealize.ShloMosaic.PureOps.Ideal.Laws
import Idealize.ShloMosaic.Lib.ValueIdx

noncomputable section

open scoped BigOperators

namespace Cert.Attention

open Idealize.ShloMosaic Idealize.ShloMosaic.ValueIdx

/-- The score of query row `i` against key row `j`: the fill where the mask bit is set, else the scaled dot product of
    the two rows plus the bias entry. -/
def score (q k : Fin 1024 → Fin 32 → EReal) (r : Fin 1024 → Fin 1024 → EReal) (msk : Fin 1024 → Fin 1024 → BitVec 1)
    (i j : Fin 1024) : EReal :=
  Scalar.select (msk i j) (Ideal.ofBits .f32 0xCE6E6B28#32)
    ((∑ d : Fin 32, q i d * k j d) * Ideal.ofBits .f32 0x3E3504F3#32 + r i j)

/-- The largest score of row `i`: the fold of `max` over the row, from −∞. -/
def rowMax (s : Fin 1024 → Fin 1024 → EReal) (i : Fin 1024) : EReal :=
  (Finset.univ : Finset (Fin 1024)).fold max (Ideal.ofBits .f32 0xFF800000#32) (s i)

/-- The unnormalized weight: the exponential of the score shifted by its row's maximum. -/
def weight (s : Fin 1024 → Fin 1024 → EReal) (i j : Fin 1024) : EReal :=
  Ideal.exp (s i j - rowMax s i)

/-- The attention probability: the weight over the sum of its row's weights. -/
def prob (s : Fin 1024 → Fin 1024 → EReal) (i j : Fin 1024) : EReal :=
  Ideal.div (weight s i j) (∑ j' : Fin 1024, weight s i j')

/-- The context: row `i`'s probabilities against feature `d` of the value rows. -/
def context (s : Fin 1024 → Fin 1024 → EReal) (v : Fin 1024 → Fin 32 → EReal) (i : Fin 1024) (d : Fin 32) : EReal :=
  ∑ j : Fin 1024, prob s i j * v j d

/-- The slab of a rank-4 array at leading coordinates `b`, `h`. -/
def slab {α : Type} {n0 n1 n2 n3 : Nat} (X : (⟨4, ![n0, n1, n2, n3]⟩ : Shape).Idx → α) (b : Fin n0) (h : Fin n1) :
    Fin n2 → Fin n3 → α :=
  fun i j => X (ix4 b h i j)

/-- The scores of batch `b`, head `h` from the whole arrays. -/
def scoresOf (Q K : (⟨4, ![8, 8, 1024, 32]⟩ : Shape).Idx → EReal) (R : (⟨4, ![8, 8, 1024, 1024]⟩ : Shape).Idx → EReal)
    (M : (⟨4, ![8, 8, 1024, 1024]⟩ : Shape).Idx → BitVec 1) (b h : Fin 8) : Fin 1024 → Fin 1024 → EReal :=
  score (slab Q b h) (slab K b h) (slab R b h) (slab M b h)

/-- The array of attention probabilities. -/
def attnArr (Q K : (⟨4, ![8, 8, 1024, 32]⟩ : Shape).Idx → EReal) (R : (⟨4, ![8, 8, 1024, 1024]⟩ : Shape).Idx → EReal)
    (M : (⟨4, ![8, 8, 1024, 1024]⟩ : Shape).Idx → BitVec 1) : (⟨4, ![8, 8, 1024, 1024]⟩ : Shape).Idx → EReal :=
  fun i => prob (scoresOf Q K R M (i 0) (i 1)) (i 2) (i 3)

/-- The array of contexts. -/
def ctxArr (Q K V : (⟨4, ![8, 8, 1024, 32]⟩ : Shape).Idx → EReal) (R : (⟨4, ![8, 8, 1024, 1024]⟩ : Shape).Idx → EReal)
    (M : (⟨4, ![8, 8, 1024, 1024]⟩ : Shape).Idx → BitVec 1) : (⟨4, ![8, 8, 1024, 32]⟩ : Shape).Idx → EReal :=
  fun i => context (scoresOf Q K R M (i 0) (i 1)) (slab V (i 0) (i 1)) (i 2) (i 3)

theorem attnArr_apply (Q K : (⟨4, ![8, 8, 1024, 32]⟩ : Shape).Idx → EReal) (R : (⟨4, ![8, 8, 1024, 1024]⟩ : Shape).Idx → EReal)
    (M : (⟨4, ![8, 8, 1024, 1024]⟩ : Shape).Idx → BitVec 1) (b h : Fin 8) (i j : Fin 1024) :
    attnArr Q K R M (ix4 b h i j) = prob (scoresOf Q K R M b h) i j := rfl

theorem ctxArr_apply (Q K V : (⟨4, ![8, 8, 1024, 32]⟩ : Shape).Idx → EReal) (R : (⟨4, ![8, 8, 1024, 1024]⟩ : Shape).Idx → EReal)
    (M : (⟨4, ![8, 8, 1024, 1024]⟩ : Shape).Idx → BitVec 1) (b h : Fin 8) (i : Fin 1024) (d : Fin 32) :
    ctxArr Q K V R M (ix4 b h i d) = context (scoresOf Q K R M b h) (slab V b h) i d := rfl

/-- The pattern of −∞ denotes the bottom of the extended reals, so taking the maximum with it changes nothing. -/
theorem max_negInf (y : EReal) : max (Ideal.ofBits .f32 0xFF800000#32) y = y := by
  simp [Ideal.ofBits, Ideal.ieee]

/-- A one-bit mask widened to a word is non-zero exactly where the bit is set. -/
theorem widened_ne_zero : ∀ b : BitVec 1, IntOp.cmpi .ne (b.setWidth 32) 0#32 = b := by decide

end Cert.Attention

end
-- ==== Proof.BlockAttention.lean ====
/-
  What the kernel body computes from the blocks it loads is masked softmax attention of ONE (batch, head) slab.

  The body receives a query, a key and a value block of shape 1 × 1 × 1024 × 32, a bias block and a mask block of shape
  1 × 1 × 1024 × 1024 (the mask as 32-bit words), and drops the two leading unit axes. Read at row `i`, column `j`:
  the first matrix product into a zero accumulator is the dot product of query row `i` and key row `j`; the select on
  "mask word ≠ 0" picks the fill; the lane reduction with a maximum body, re-laid as a column and broadcast along the row,
  is the fold of `max` over row `i` from −∞; the lane reduction with an add body likewise is the row's sum; the second
  matrix product into a zero accumulator sums the probabilities of row `i` against column `d` of the value slab.
  So the two payloads are `Cert.Attention.prob` and `Cert.Attention.context` of the blocks' slabs.
-/
import proofs.«136659_j37151467110605_2_alg».proof.Proof.Gen.KernelIdeal.Skeleton
import proofs.«136659_j37151467110605_2_alg».proof.Proof.Attention
import Idealize.ShloMosaic.Lib.Pipeline.Value
import Idealize.ShloMosaic.Lib.ValueIdx
import Idealize.ShloMosaic.PureOps.Ideal.Laws

noncomputable section

open scoped BigOperators

namespace Cert.KernelIdeal.BlockValue

open Cert.KernelIdeal Cert.KernelIdeal.Gen Cert.Attention
open Idealize.ShloMosaic Idealize.ShloMosaic.ValueIdx

/-! ## Layout: dropping the unit axes, and a column laid along the rows -/

/-- A 1 × 1 × 1024 × 32 block with its two unit axes dropped, read at (i, d). -/
theorem slab32_apply {α : Type} (P : S1x1x1024x32.Idx → α) (i : Fin 1024) (d : Fin 32) :
    shapeCast S1024x32 P shapeCasts_S1x1x1024x32_S1024x32 (ix2 i d) = P (ix4 (0 : Fin 1) (0 : Fin 1) i d) :=
  shapeCast_apply P _ (ix2 i d) (ix4 (0 : Fin 1) (0 : Fin 1) i d) (by
    rw [Shape.rowMajor_val_four, Shape.rowMajor_val_two]
    show ((0 * 1 + 0) * 1024 + i.val) * 32 + d.val = i.val * 32 + d.val
    omega)

/-- A 1 × 1 × 1024 × 1024 block with its two unit axes dropped, read at (i, j). -/
theorem slab1024_apply {α : Type} (P : S1x1x1024x1024.Idx → α) (i j : Fin 1024) :
    shapeCast S1024x1024 P shapeCasts_S1x1x1024x1024_S1024x1024 (ix2 i j) = P (ix4 (0 : Fin 1) (0 : Fin 1) i j) :=
  shapeCast_apply P _ (ix2 i j) (ix4 (0 : Fin 1) (0 : Fin 1) i j) (by
    rw [Shape.rowMajor_val_four, Shape.rowMajor_val_two]
    show ((0 * 1 + 0) * 1024 + i.val) * 1024 + j.val = i.val * 1024 + j.val
    omega)

/-- A vector of 1024 entries re-laid as a column and broadcast along the rows: entry `i` everywhere in row `i`. -/
theorem column_apply {α : Type} (v : S1024.Idx → α) (i j : Fin 1024) :
    broadcastTo S1024x1024 (shapeCast S1024x1 v shapeCasts_S1024_S1024x1) broadcasts_S1024x1_S1024x1024 (ix2 i j)
      = v (ix1 i) := by
  refine (broadcastTo_apply _ broadcasts_S1024x1_S1024x1024 (ix2 i j) (ix2 i (0 : Fin 1)) (fun a => match a with
    | ⟨0, _⟩ => by show i.val = if (1024 : Nat) = 1 then 0 else i.val; rw [if_neg (by decide)]
    | ⟨1, _⟩ => by show (0 : Nat) = if (1 : Nat) = 1 then 0 else j.val; rw [if_pos rfl])).trans ?_
  exact shapeCast_apply v _ (ix2 i (0 : Fin 1)) (ix1 i) (by
    rw [Shape.rowMajor_val_one, Shape.rowMajor_val_two]
    show i.val = i.val * 1 + 0
    omega)

/-! ## The two lane reductions -/

/-- The lane reduction with a maximum body at row `i`: the fold of `max` over the row from −∞. -/
theorem laneMax_apply (s : FVec Ideal S1024x1024 .f32) (i : Fin 1024) :
    multiReduction .maximumf [1] S1024 s 0xFF800000#32 reduces_S1024x1024_S1024 (.inl rfl) rfl (ix1 i)
      = (Finset.univ : Finset (Fin 1024)).fold max (Ideal.ofBits .f32 0xFF800000#32) (fun k => s (ix2 i k)) := by
  refine (Ideal.multiReduction_maximumf_single s 0xFF800000#32 reduces_S1024x1024_S1024 (.inl rfl) rfl (ix1 i)).trans ?_
  have hf : (s ∘ reduces_S1024x1024_S1024.lift (ix1 i)) = fun k : Fin 1024 => s (ix2 i k) := funext fun k =>
    congrArg s (funext fun a => Fin.ext (by match a with | ⟨0, _⟩ => rfl | ⟨1, _⟩ => rfl))
  rw [hf]
  rfl

/-- The lane reduction with an add body at row `i`: the row's sum. -/
theorem laneSum_apply (s : FVec Ideal S1024x1024 .f32) (i : Fin 1024) :
    multiReduction .add [1] S1024 s 0x00000000#32 reduces_S1024x1024_S1024 (.inl rfl) rfl (ix1 i)
      = ∑ k : Fin 1024, s (ix2 i k) := by
  refine (Ideal.multiReduction_add_single s 0x00000000#32 reduces_S1024x1024_S1024 (.inl rfl) rfl (ix1 i)).trans ?_
  exact Finset.sum_congr rfl fun k _ => congrArg s (funext fun a => Fin.ext (by
    match a with | ⟨0, _⟩ => rfl | ⟨1, _⟩ => rfl))

/-! ## The two matrix products -/

theorem qk_lhs_0 (j : S1024x1024.Idx) (q : dot_S1024x32_S1024x32_S1024x1024_1_1_0_0_n_n.contr.Idx) : (dot_S1024x32_S1024x32_S1024x1024_1_1_0_0_n_n.lhsIdx j q 0).val = (j 0).val := by
  unfold DotDims.lhsIdx
  rw [dif_neg (show ¬(0 : Fin S1024x32.rank) ∈ dot_S1024x32_S1024x32_S1024x1024_1_1_0_0_n_n.lhsBatch by decide),
    dif_pos (show (0 : Fin S1024x32.rank) ∈ dot_S1024x32_S1024x32_S1024x1024_1_1_0_0_n_n.lhsNonContracting by decide)]
  rfl
theorem qk_lhs_1 (j : S1024x1024.Idx) (q : dot_S1024x32_S1024x32_S1024x1024_1_1_0_0_n_n.contr.Idx) : (dot_S1024x32_S1024x32_S1024x1024_1_1_0_0_n_n.lhsIdx j q 1).val = (q ⟨0, by decide⟩).val :=
  dot_S1024x32_S1024x32_S1024x1024_1_1_0_0_n_n.lhsIdx_val_of_single rfl j q
theorem qk_rhs_0 (j : S1024x1024.Idx) (q : dot_S1024x32_S1024x32_S1024x1024_1_1_0_0_n_n.contr.Idx) : (dot_S1024x32_S1024x32_S1024x1024_1_1_0_0_n_n.rhsIdx j q 0).val = (j 1).val := by
  unfold DotDims.rhsIdx
  rw [dif_neg (show ¬(0 : Fin S1024x32.rank) ∈ dot_S1024x32_S1024x32_S1024x1024_1_1_0_0_n_n.rhsBatch by decide),
    dif_pos (show (0 : Fin S1024x32.rank) ∈ dot_S1024x32_S1024x32_S1024x1024_1_1_0_0_n_n.rhsNonContracting by decide)]
  rfl
theorem qk_rhs_1 (j : S1024x1024.Idx) (q : dot_S1024x32_S1024x32_S1024x1024_1_1_0_0_n_n.contr.Idx) : (dot_S1024x32_S1024x32_S1024x1024_1_1_0_0_n_n.rhsIdx j q 1).val = (q ⟨0, by decide⟩).val :=
  dot_S1024x32_S1024x32_S1024x1024_1_1_0_0_n_n.rhsIdx_val_of_single rfl j q

/-- The first matrix product, into a zero accumulator, at (i, j): row `i` of the left operand against row `j` of the
    right one. -/
theorem rowsDot_apply (a b : FVec Ideal S1024x32 .f32) (i j : Fin 1024) :
    matmul dot_S1024x32_S1024x32_S1024x1024_1_1_0_0_n_n none a b (constant (F := Ideal) S1024x1024 .f32 0x00000000#32) (ix2 i j)
      = ∑ d : Fin 32, a (ix2 i d) * b (ix2 j d) := by
  refine (Ideal.matmul_constant_zero_apply dot_S1024x32_S1024x32_S1024x1024_1_1_0_0_n_n none a b (ix2 i j)).trans ?_
  rw [← Equiv.sum_comp (contrEquiv1 dot_S1024x32_S1024x32_S1024x1024_1_1_0_0_n_n 32 rfl rfl).symm]
  refine Finset.sum_congr rfl fun k _ => ?_
  have hk := contrEquiv1_symm_val dot_S1024x32_S1024x32_S1024x1024_1_1_0_0_n_n 32 rfl rfl k
  have el : dot_S1024x32_S1024x32_S1024x1024_1_1_0_0_n_n.lhsIdx (ix2 i j) ((contrEquiv1 dot_S1024x32_S1024x32_S1024x1024_1_1_0_0_n_n 32 rfl rfl).symm k) = ix2 i k := funext fun a => Fin.ext (by
    match a with
    | ⟨0, _⟩ => exact qk_lhs_0 _ _
    | ⟨1, _⟩ => exact (qk_lhs_1 _ _).trans hk)
  have er : dot_S1024x32_S1024x32_S1024x1024_1_1_0_0_n_n.rhsIdx (ix2 i j) ((contrEquiv1 dot_S1024x32_S1024x32_S1024x1024_1_1_0_0_n_n 32 rfl rfl).symm k) = ix2 j k := funext fun a => Fin.ext (by
    match a with
    | ⟨0, _⟩ => exact qk_rhs_0 _ _
    | ⟨1, _⟩ => exact (qk_rhs_1 _ _).trans hk)
  rw [el, er]

theorem pv_lhs_0 (j : S1024x32.Idx) (q : dot_S1024x1024_S1024x32_S1024x32_1_0_0_1_n_n.contr.Idx) : (dot_S1024x1024_S1024x32_S1024x32_1_0_0_1_n_n.lhsIdx j q 0).val = (j 0).val := by
  unfold DotDims.lhsIdx
  rw [dif_neg (show ¬(0 : Fin S1024x1024.rank) ∈ dot_S1024x1024_S1024x32_S1024x32_1_0_0_1_n_n.lhsBatch by decide),
    dif_pos (show (0 : Fin S1024x1024.rank) ∈ dot_S1024x1024_S1024x32_S1024x32_1_0_0_1_n_n.lhsNonContracting by decide)]
  rfl
theorem pv_lhs_1 (j : S1024x32.Idx) (q : dot_S1024x1024_S1024x32_S1024x32_1_0_0_1_n_n.contr.Idx) : (dot_S1024x1024_S1024x32_S1024x32_1_0_0_1_n_n.lhsIdx j q 1).val = (q ⟨0, by decide⟩).val :=
  dot_S1024x1024_S1024x32_S1024x32_1_0_0_1_n_n.lhsIdx_val_of_single rfl j q
theorem pv_rhs_0 (j : S1024x32.Idx) (q : dot_S1024x1024_S1024x32_S1024x32_1_0_0_1_n_n.contr.Idx) : (dot_S1024x1024_S1024x32_S1024x32_1_0_0_1_n_n.rhsIdx j q 0).val = (q ⟨0, by decide⟩).val :=
  dot_S1024x1024_S1024x32_S1024x32_1_0_0_1_n_n.rhsIdx_val_of_single rfl j q
theorem pv_rhs_1 (j : S1024x32.Idx) (q : dot_S1024x1024_S1024x32_S1024x32_1_0_0_1_n_n.contr.Idx) : (dot_S1024x1024_S1024x32_S1024x32_1_0_0_1_n_n.rhsIdx j q 1).val = (j 1).val := by
  unfold DotDims.rhsIdx
  rw [dif_neg (show ¬(1 : Fin S1024x32.rank) ∈ dot_S1024x1024_S1024x32_S1024x32_1_0_0_1_n_n.rhsBatch by decide),
    dif_pos (show (1 : Fin S1024x32.rank) ∈ dot_S1024x1024_S1024x32_S1024x32_1_0_0_1_n_n.rhsNonContracting by decide)]
  rfl

/-- The second matrix product, into a zero accumulator, at (i, d): row `i` of the left operand against column `d` of
    the right one. -/
theorem rowColDot_apply (p : FVec Ideal S1024x1024 .f32) (v : FVec Ideal S1024x32 .f32) (i : Fin 1024) (d : Fin 32) :
    matmul dot_S1024x1024_S1024x32_S1024x32_1_0_0_1_n_n none p v (constant (F := Ideal) S1024x32 .f32 0x00000000#32) (ix2 i d)
      = ∑ k : Fin 1024, p (ix2 i k) * v (ix2 k d) := by
  refine (Ideal.matmul_constant_zero_apply dot_S1024x1024_S1024x32_S1024x32_1_0_0_1_n_n none p v (ix2 i d)).trans ?_
  rw [← Equiv.sum_comp (contrEquiv1 dot_S1024x1024_S1024x32_S1024x32_1_0_0_1_n_n 1024 rfl rfl).symm]
  refine Finset.sum_congr rfl fun k _ => ?_
  have hk := contrEquiv1_symm_val dot_S1024x1024_S1024x32_S1024x32_1_0_0_1_n_n 1024 rfl rfl k
  have el : dot_S1024x1024_S1024x32_S1024x32_1_0_0_1_n_n.lhsIdx (ix2 i d) ((contrEquiv1 dot_S1024x1024_S1024x32_S1024x32_1_0_0_1_n_n 1024 rfl rfl).symm k) = ix2 i k := funext fun a => Fin.ext (by
    match a with
    | ⟨0, _⟩ => exact pv_lhs_0 _ _
    | ⟨1, _⟩ => exact (pv_lhs_1 _ _).trans hk)
  have er : dot_S1024x1024_S1024x32_S1024x32_1_0_0_1_n_n.rhsIdx (ix2 i d) ((contrEquiv1 dot_S1024x1024_S1024x32_S1024x32_1_0_0_1_n_n 1024 rfl rfl).symm k) = ix2 k d := funext fun a => Fin.ext (by
    match a with
    | ⟨0, _⟩ => exact (pv_rhs_0 _ _).trans hk
    | ⟨1, _⟩ => exact pv_rhs_1 _ _)
  rw [el, er]

/-! ## The body's values as vectors -/

variable (P0 P1 P2 : Vec Ideal S1x1x1024x32 .f32) (P3 : Vec Ideal S1x1x1024x1024 .f32) (P4 : Vec Ideal S1x1x1024x1024 .i32)

/-- The mask bits of a block of mask words: set where the word is not zero. -/
def blockMask (P4 : Vec Ideal S1x1x1024x1024 .i32) : Fin 1024 → Fin 1024 → BitVec 1 :=
  fun i j => IntOp.cmpi .ne (P4 (ix4 (0 : Fin 1) (0 : Fin 1) i j)) 0#32

/-- The scores of the blocks' slabs. -/
def blockScores : Fin 1024 → Fin 1024 → EReal :=
  score (slab P0 (0 : Fin 1) (0 : Fin 1)) (slab P1 (0 : Fin 1) (0 : Fin 1)) (slab P3 (0 : Fin 1) (0 : Fin 1)) (blockMask P4)

/-- The body's masked score vector. -/
def scoreVec : FVec Ideal S1024x1024 .f32 :=
  select (cmpi .ne (shapeCast S1024x1024 P4 shapeCasts_S1x1x1024x1024_S1024x1024) (constantI S1024x1024 32 0#32))
    (broadcast S1024x1024 (Scalar.ofBits (F := Ideal) .f32 0xCE6E6B28#32))
    (addf (mulf (matmul (φ₁ := .f32) (φ₂ := .f32) dot_S1024x32_S1024x32_S1024x1024_1_1_0_0_n_n none (shapeCast S1024x32 P0 shapeCasts_S1x1x1024x32_S1024x32)
        (shapeCast S1024x32 P1 shapeCasts_S1x1x1024x32_S1024x32) (constant (F := Ideal) S1024x1024 .f32 0x00000000#32))
      (broadcast S1024x1024 (Scalar.ofBits (F := Ideal) .f32 0x3E3504F3#32)))
      (shapeCast S1024x1024 P3 shapeCasts_S1x1x1024x1024_S1024x1024))

/-- A score vector's row maxima laid along the rows. -/
def rowMaxVec (s : FVec Ideal S1024x1024 .f32) : FVec Ideal S1024x1024 .f32 :=
  broadcastTo S1024x1024 (shapeCast S1024x1 (multiReduction .maximumf [1] S1024 s 0xFF800000#32 reduces_S1024x1024_S1024
    (.inl rfl) rfl) shapeCasts_S1024_S1024x1) broadcasts_S1024x1_S1024x1024

/-- The weights of a score vector. -/
def weightVec (s : FVec Ideal S1024x1024 .f32) : FVec Ideal S1024x1024 .f32 :=
  exp (subf s (rowMaxVec s))

/-- A vector's row sums laid along the rows. -/
def rowSumVec (w : FVec Ideal S1024x1024 .f32) : FVec Ideal S1024x1024 .f32 :=
  broadcastTo S1024x1024 (shapeCast S1024x1 (multiReduction .add [1] S1024 w 0x00000000#32 reduces_S1024x1024_S1024
    (.inl rfl) rfl) shapeCasts_S1024_S1024x1) broadcasts_S1024x1_S1024x1024

/-- The probabilities of a score vector. -/
def probVec (s : FVec Ideal S1024x1024 .f32) : FVec Ideal S1024x1024 .f32 :=
  divf (weightVec s) (rowSumVec (weightVec s))

/-- The probabilities payload is the probability vector of the score vector. -/
theorem pay3_eq : k0_pay3 (F := Ideal) P0 P1 P3 P4 = probVec (scoreVec P0 P1 P3 P4) := rfl

/-- The context payload is the second matrix product of the probabilities payload and the value slab. -/
theorem pay4_eq : k0_pay4 (F := Ideal) P0 P1 P2 P3 P4
    = matmul (φ₁ := .f32) (φ₂ := .f32) dot_S1024x1024_S1024x32_S1024x32_1_0_0_1_n_n none (k0_pay3 (F := Ideal) P0 P1 P3 P4) (shapeCast S1024x32 P2 shapeCasts_S1x1x1024x32_S1024x32)
        (constant (F := Ideal) S1024x32 .f32 0x00000000#32) := rfl

/-! ## Read at an index -/

theorem scoreVec_apply (i j : Fin 1024) : scoreVec P0 P1 P3 P4 (ix2 i j) = blockScores P0 P1 P3 P4 i j := by
  unfold scoreVec
  show Scalar.select (IntOp.cmpi .ne (shapeCast S1024x1024 P4 shapeCasts_S1x1x1024x1024_S1024x1024 (ix2 i j)) 0#32)
      (Ideal.ofBits .f32 0xCE6E6B28#32)
      (matmul (φ₁ := .f32) (φ₂ := .f32) dot_S1024x32_S1024x32_S1024x1024_1_1_0_0_n_n none (shapeCast S1024x32 P0 shapeCasts_S1x1x1024x32_S1024x32)
          (shapeCast S1024x32 P1 shapeCasts_S1x1x1024x32_S1024x32) (constant (F := Ideal) S1024x1024 .f32 0x00000000#32) (ix2 i j)
        * Ideal.ofBits .f32 0x3E3504F3#32
        + shapeCast S1024x1024 P3 shapeCasts_S1x1x1024x1024_S1024x1024 (ix2 i j)) = _
  rw [slab1024_apply, slab1024_apply, rowsDot_apply]
  simp only [slab32_apply]
  rfl

section Rows
variable (s : FVec Ideal S1024x1024 .f32) (S : Fin 1024 → Fin 1024 → EReal) (hs : ∀ i j, s (ix2 i j) = S i j)
include hs

theorem rowMaxVec_apply (i j : Fin 1024) : rowMaxVec s (ix2 i j) = rowMax S i := by
  unfold rowMaxVec rowMax
  rw [column_apply, laneMax_apply]
  exact congrArg (fun f => Finset.fold max (Ideal.ofBits .f32 0xFF800000#32) f (Finset.univ : Finset (Fin 1024)))
    (funext fun k => hs i k)

theorem weightVec_apply (i j : Fin 1024) : weightVec s (ix2 i j) = weight S i j := by
  show Ideal.exp (s (ix2 i j) - rowMaxVec s (ix2 i j)) = _
  rw [hs, rowMaxVec_apply s S hs]
  rfl

theorem probVec_apply (i j : Fin 1024) : probVec s (ix2 i j) = prob S i j := by
  show Ideal.div (weightVec s (ix2 i j)) (rowSumVec (weightVec s) (ix2 i j)) = _
  unfold rowSumVec
  rw [column_apply, laneSum_apply, weightVec_apply s S hs]
  simp only [weightVec_apply s S hs]
  rfl

end Rows

/-- The probabilities payload at (i, j). -/
theorem pay3_apply (i j : Fin 1024) :
    k0_pay3 (F := Ideal) P0 P1 P3 P4 (ix2 i j) = prob (blockScores P0 P1 P3 P4) i j := by
  rw [pay3_eq]
  exact probVec_apply _ _ (scoreVec_apply P0 P1 P3 P4) i j

/-- The context payload at (i, d). -/
theorem pay4_apply (i : Fin 1024) (d : Fin 32) :
    k0_pay4 (F := Ideal) P0 P1 P2 P3 P4 (ix2 i d)
      = context (blockScores P0 P1 P3 P4) (slab P2 (0 : Fin 1) (0 : Fin 1)) i d := by
  rw [pay4_eq, rowColDot_apply]
  refine Finset.sum_congr rfl fun k _ => ?_
  rw [pay3_apply, slab32_apply]
  rfl

end Cert.KernelIdeal.BlockValue

end
-- ==== Proof.AttentionArrays.lean ====
/-
  From blocks to arrays. The grid has one point per (batch, head) pair, and every window's block at a point is the
  whole 1024-row slab of its array at that pair: the index maps send a point to (batch, head, 0, 0). So what a point
  writes back to the two output arrays is the slab of the attention probabilities and of the contexts at its pair, the
  64 slabs cover both arrays, and after the run the arrays hold `Cert.Attention.attnArr` and `Cert.Attention.ctxArr` of
  the argument arrays. The mask reaches the kernel widened to 32-bit words by a host conversion before the launch; the
  body's test "word ≠ 0" recovers the bit.
-/
import proofs.«136659_j37151467110605_2_alg».proof.Proof.Gen.KernelIdeal.Value
import proofs.«136659_j37151467110605_2_alg».proof.Proof.BlockAttention
import Idealize.ShloMosaic.Lib.StableHlo.Run

noncomputable section

open scoped BigOperators

namespace Cert.KernelIdeal.ArrayValue

open Cert.KernelIdeal Cert.KernelIdeal.Gen Cert.KernelIdeal.BlockValue Cert.Attention
open Idealize.ShloMosaic Idealize.ShloMosaic.TcCoe Idealize.ShloMosaic.ValueIdx Idealize.SL.Sem
open Idealize.ShloMosaic.Pipeline (Dat)

theorem offsets_zero : (![0, 0, 0, 0] : Fin 4 → Nat) = fun _ => 0 := funext fun a => by fin_cases a <;> rfl

/-! ## What one point leaves in its two output blocks -/

/-- The probabilities block a point leaves, from the point's input blocks. -/
theorem attnBlock_apply (x0 x1 x2 : Vec Ideal S1x1x1024x32 .f32) (x3 : Vec Ideal S1x1x1024x1024 .i32)
    (x4 : Vec Ideal S1x1x1024x1024 .f32) (i j : Fin 1024) :
    out0_6 x0 x1 x2 x3 x4 (ix4 (0 : Fin 1) (0 : Fin 1) i j) = prob (blockScores x0 x1 x4 x3) i j := by
  unfold out0_6
  rw [View.canon_unit_zero offsets_zero]
  simp only [View.ld_unit_zero (S := S1x1x1024x32) offsets_zero, View.ld_unit_zero (S := S1x1x1024x1024) offsets_zero]
  show shapeCast S1x1x1024x1024 (k0_pay3 (F := Ideal) x0 x1 x4 x3) shapeCasts_S1024x1024_S1x1x1024x1024 (ix4 (0 : Fin 1) (0 : Fin 1) i j) = _
  refine (shapeCast_apply _ _ (ix4 (0 : Fin 1) (0 : Fin 1) i j) (ix2 i j) (by
    rw [Shape.rowMajor_val_two, Shape.rowMajor_val_four]
    show i.val * 1024 + j.val = ((0 * 1 + 0) * 1024 + i.val) * 1024 + j.val
    omega)).trans ?_
  exact pay3_apply x0 x1 x4 x3 i j

/-- The context block a point leaves, from the point's input blocks. -/
theorem ctxBlock_apply (x0 x1 x2 : Vec Ideal S1x1x1024x32 .f32) (x3 : Vec Ideal S1x1x1024x1024 .i32)
    (x4 : Vec Ideal S1x1x1024x1024 .f32) (i : Fin 1024) (d : Fin 32) :
    out0_5 x0 x1 x2 x3 x4 (ix4 (0 : Fin 1) (0 : Fin 1) i d) = context (blockScores x0 x1 x4 x3) (slab x2 (0 : Fin 1) (0 : Fin 1)) i d := by
  unfold out0_5
  rw [View.canon_unit_zero offsets_zero]
  simp only [View.ld_unit_zero (S := S1x1x1024x32) offsets_zero, View.ld_unit_zero (S := S1x1x1024x1024) offsets_zero]
  show shapeCast S1x1x1024x32 (k0_pay4 (F := Ideal) x0 x1 x2 x4 x3) shapeCasts_S1024x32_S1x1x1024x32 (ix4 (0 : Fin 1) (0 : Fin 1) i d) = _
  refine (shapeCast_apply _ _ (ix4 (0 : Fin 1) (0 : Fin 1) i d) (ix2 i d) (by
    rw [Shape.rowMajor_val_two, Shape.rowMajor_val_four]
    show i.val * 32 + d.val = ((0 * 1 + 0) * 1024 + i.val) * 32 + d.val
    omega)).trans ?_
  exact pay4_apply x0 x1 x2 x4 x3 i d

/-! ## The index maps: a point's blocks are the slabs of its (batch, head) pair -/

/-- Decided over the 64 points: every window's block index at a point is the probabilities window's, which is
    (batch, head, 0, 0) with both leading entries below 8. -/
theorem idx_facts : ∀ t : Fin cfg0.N,
    win0_0.index t = win0_6.index t ∧ win0_1.index t = win0_6.index t ∧ win0_2.index t = win0_6.index t
    ∧ win0_3.index t = win0_6.index t ∧ win0_4.index t = win0_6.index t ∧ win0_5.index t = win0_6.index t
    ∧ win0_6.index t (0 : Fin 4) < 8 ∧ win0_6.index t (1 : Fin 4) < 8
    ∧ win0_6.index t (2 : Fin 4) = 0 ∧ win0_6.index t (3 : Fin 4) = 0 :=
  (by decide +kernel : ∀ t : Fin grid0.N, _)

/-- Every (batch, head) pair is some point's. -/
theorem idx_onto : ∀ (q0 q1 : Fin 8), ∃ t : Fin cfg0.N, win0_6.index t = ![q0.val, q1.val, 0, 0] :=
  (by decide +kernel : ∀ (q0 q1 : Fin 8), ∃ t : Fin grid0.N, win0_6.index t = ![q0.val, q1.val, 0, 0])

/-- The batch of a point. -/
def batchOf (t : Fin cfg0.N) : Fin 8 := ⟨win0_6.index t (0 : Fin 4), (idx_facts t).2.2.2.2.2.2.1⟩
/-- The head of a point. -/
def headOf (t : Fin cfg0.N) : Fin 8 := ⟨win0_6.index t (1 : Fin 4), (idx_facts t).2.2.2.2.2.2.2.1⟩

theorem emb0 (t : Fin cfg0.N) (y0 y1 : Fin 1) (i : Fin 1024) (k : Fin 32) :
    ((cfg0.win 0).blk t).view.emb (ix4 y0 y1 i k) = ix4 (batchOf t) (headOf t) i k := by
  obtain ⟨e0, e1, e2, e3, e4, e5, -, -, z2, z3⟩ := idx_facts t
  have h0 : y0.val < 1 := y0.isLt
  have h1 : y1.val < 1 := y1.isLt
  funext a; apply Fin.ext
  match a with
  | ⟨0, _⟩ => show win0_0.index t (0 : Fin 4) * 1 + 1 * y0.val = win0_6.index t (0 : Fin 4); rw [e0]; omega
  | ⟨1, _⟩ => show win0_0.index t (1 : Fin 4) * 1 + 1 * y1.val = win0_6.index t (1 : Fin 4); rw [e0]; omega
  | ⟨2, _⟩ => show win0_0.index t (2 : Fin 4) * 1024 + 1 * i.val = i.val; rw [e0, z2]; omega
  | ⟨3, _⟩ => show win0_0.index t (3 : Fin 4) * 32 + 1 * k.val = k.val; rw [e0, z3]; omega

theorem emb1 (t : Fin cfg0.N) (y0 y1 : Fin 1) (i : Fin 1024) (k : Fin 32) :
    ((cfg0.win 1).blk t).view.emb (ix4 y0 y1 i k) = ix4 (batchOf t) (headOf t) i k := by
  obtain ⟨e0, e1, e2, e3, e4, e5, -, -, z2, z3⟩ := idx_facts t
  have h0 : y0.val < 1 := y0.isLt
  have h1 : y1.val < 1 := y1.isLt
  funext a; apply Fin.ext
  match a with
  | ⟨0, _⟩ => show win0_1.index t (0 : Fin 4) * 1 + 1 * y0.val = win0_6.index t (0 : Fin 4); rw [e1]; omega
  | ⟨1, _⟩ => show win0_1.index t (1 : Fin 4) * 1 + 1 * y1.val = win0_6.index t (1 : Fin 4); rw [e1]; omega
  | ⟨2, _⟩ => show win0_1.index t (2 : Fin 4) * 1024 + 1 * i.val = i.val; rw [e1, z2]; omega
  | ⟨3, _⟩ => show win0_1.index t (3 : Fin 4) * 32 + 1 * k.val = k.val; rw [e1, z3]; omega

theorem emb2 (t : Fin cfg0.N) (y0 y1 : Fin 1) (i : Fin 1024) (k : Fin 32) :
    ((cfg0.win 2).blk t).view.emb (ix4 y0 y1 i k) = ix4 (batchOf t) (headOf t) i k := by
  obtain ⟨e0, e1, e2, e3, e4, e5, -, -, z2, z3⟩ := idx_facts t
  have h0 : y0.val < 1 := y0.isLt
  have h1 : y1.val < 1 := y1.isLt
  funext a; apply Fin.ext
  match a with
  | ⟨0, _⟩ => show win0_2.index t (0 : Fin 4) * 1 + 1 * y0.val = win0_6.index t (0 : Fin 4); rw [e2]; omega
  | ⟨1, _⟩ => show win0_2.index t (1 : Fin 4) * 1 + 1 * y1.val = win0_6.index t (1 : Fin 4); rw [e2]; omega
  | ⟨2, _⟩ => show win0_2.index t (2 : Fin 4) * 1024 + 1 * i.val = i.val; rw [e2, z2]; omega
  | ⟨3, _⟩ => show win0_2.index t (3 : Fin 4) * 32 + 1 * k.val = k.val; rw [e2, z3]; omega

theorem emb3 (t : Fin cfg0.N) (y0 y1 : Fin 1) (i : Fin 1024) (k : Fin 1024) :
    ((cfg0.win 3).blk t).view.emb (ix4 y0 y1 i k) = ix4 (batchOf t) (headOf t) i k := by
  obtain ⟨e0, e1, e2, e3, e4, e5, -, -, z2, z3⟩ := idx_facts t
  have h0 : y0.val < 1 := y0.isLt
  have h1 : y1.val < 1 := y1.isLt
  funext a; apply Fin.ext
  match a with
  | ⟨0, _⟩ => show win0_3.index t (0 : Fin 4) * 1 + 1 * y0.val = win0_6.index t (0 : Fin 4); rw [e3]; omega
  | ⟨1, _⟩ => show win0_3.index t (1 : Fin 4) * 1 + 1 * y1.val = win0_6.index t (1 : Fin 4); rw [e3]; omega
  | ⟨2, _⟩ => show win0_3.index t (2 : Fin 4) * 1024 + 1 * i.val = i.val; rw [e3, z2]; omega
  | ⟨3, _⟩ => show win0_3.index t (3 : Fin 4) * 1024 + 1 * k.val = k.val; rw [e3, z3]; omega

theorem emb4 (t : Fin cfg0.N) (y0 y1 : Fin 1) (i : Fin 1024) (k : Fin 1024) :
    ((cfg0.win 4).blk t).view.emb (ix4 y0 y1 i k) = ix4 (batchOf t) (headOf t) i k := by
  obtain ⟨e0, e1, e2, e3, e4, e5, -, -, z2, z3⟩ := idx_facts t
  have h0 : y0.val < 1 := y0.isLt
  have h1 : y1.val < 1 := y1.isLt
  funext a; apply Fin.ext
  match a with
  | ⟨0, _⟩ => show win0_4.index t (0 : Fin 4) * 1 + 1 * y0.val = win0_6.index t (0 : Fin 4); rw [e4]; omega
  | ⟨1, _⟩ => show win0_4.index t (1 : Fin 4) * 1 + 1 * y1.val = win0_6.index t (1 : Fin 4); rw [e4]; omega
  | ⟨2, _⟩ => show win0_4.index t (2 : Fin 4) * 1024 + 1 * i.val = i.val; rw [e4, z2]; omega
  | ⟨3, _⟩ => show win0_4.index t (3 : Fin 4) * 1024 + 1 * k.val = k.val; rw [e4, z3]; omega

theorem emb5 (t : Fin cfg0.N) (y0 y1 : Fin 1) (i : Fin 1024) (k : Fin 32) :
    ((cfg0.win 5).blk t).view.emb (ix4 y0 y1 i k) = ix4 (batchOf t) (headOf t) i k := by
  obtain ⟨e0, e1, e2, e3, e4, e5, -, -, z2, z3⟩ := idx_facts t
  have h0 : y0.val < 1 := y0.isLt
  have h1 : y1.val < 1 := y1.isLt
  funext a; apply Fin.ext
  match a with
  | ⟨0, _⟩ => show win0_5.index t (0 : Fin 4) * 1 + 1 * y0.val = win0_6.index t (0 : Fin 4); rw [e5]; omega
  | ⟨1, _⟩ => show win0_5.index t (1 : Fin 4) * 1 + 1 * y1.val = win0_6.index t (1 : Fin 4); rw [e5]; omega
  | ⟨2, _⟩ => show win0_5.index t (2 : Fin 4) * 1024 + 1 * i.val = i.val; rw [e5, z2]; omega
  | ⟨3, _⟩ => show win0_5.index t (3 : Fin 4) * 32 + 1 * k.val = k.val; rw [e5, z3]; omega

theorem emb6 (t : Fin cfg0.N) (y0 y1 : Fin 1) (i : Fin 1024) (k : Fin 1024) :
    ((cfg0.win 6).blk t).view.emb (ix4 y0 y1 i k) = ix4 (batchOf t) (headOf t) i k := by
  obtain ⟨e0, e1, e2, e3, e4, e5, -, -, z2, z3⟩ := idx_facts t
  have h0 : y0.val < 1 := y0.isLt
  have h1 : y1.val < 1 := y1.isLt
  funext a; apply Fin.ext
  match a with
  | ⟨0, _⟩ => show win0_6.index t (0 : Fin 4) * 1 + 1 * y0.val = win0_6.index t (0 : Fin 4); omega
  | ⟨1, _⟩ => show win0_6.index t (1 : Fin 4) * 1 + 1 * y1.val = win0_6.index t (1 : Fin 4); omega
  | ⟨2, _⟩ => show win0_6.index t (2 : Fin 4) * 1024 + 1 * i.val = i.val; rw [z2]; omega
  | ⟨3, _⟩ => show win0_6.index t (3 : Fin 4) * 1024 + 1 * k.val = k.val; rw [z3]; omega

/-! ## The input blocks of a point, read off the argument arrays -/

variable (m : (ℓ : Loc nD τ sig) → Buf (Elt Ideal) ℓ) (ρ : Dev nD → PrngReg)

theorem iblk0_apply (c : Dev nD) (t : Fin cfg0.N) (i : Fin 1024) (k : Fin 32) :
    (iblk m c 0 t : Vec Ideal S1x1x1024x32 .f32) (ix4 (0 : Fin 1) (0 : Fin 1) i k) = (m ((c : Thread nD τ).loc main_arg0) : S8x8x1024x32.Idx → EReal) (ix4 (batchOf t) (headOf t) i k) := by
  show V m c main_arg0 (((cfg0.win 0).blk t).view.emb (ix4 (0 : Fin 1) (0 : Fin 1) i k)) = _
  rw [emb0, V_main_arg0]

theorem iblk1_apply (c : Dev nD) (t : Fin cfg0.N) (i : Fin 1024) (k : Fin 32) :
    (iblk m c 1 t : Vec Ideal S1x1x1024x32 .f32) (ix4 (0 : Fin 1) (0 : Fin 1) i k) = (m ((c : Thread nD τ).loc main_arg1) : S8x8x1024x32.Idx → EReal) (ix4 (batchOf t) (headOf t) i k) := by
  show V m c main_arg1 (((cfg0.win 1).blk t).view.emb (ix4 (0 : Fin 1) (0 : Fin 1) i k)) = _
  rw [emb1, V_main_arg1]

theorem iblk2_apply (c : Dev nD) (t : Fin cfg0.N) (i : Fin 1024) (k : Fin 32) :
    (iblk m c 2 t : Vec Ideal S1x1x1024x32 .f32) (ix4 (0 : Fin 1) (0 : Fin 1) i k) = (m ((c : Thread nD τ).loc main_arg2) : S8x8x1024x32.Idx → EReal) (ix4 (batchOf t) (headOf t) i k) := by
  show V m c main_arg2 (((cfg0.win 2).blk t).view.emb (ix4 (0 : Fin 1) (0 : Fin 1) i k)) = _
  rw [emb2, V_main_arg2]

theorem iblk4_apply (c : Dev nD) (t : Fin cfg0.N) (i : Fin 1024) (k : Fin 1024) :
    (iblk m c 4 t : Vec Ideal S1x1x1024x1024 .f32) (ix4 (0 : Fin 1) (0 : Fin 1) i k) = (m ((c : Thread nD τ).loc main_arg4) : S8x8x1024x1024.Idx → EReal) (ix4 (batchOf t) (headOf t) i k) := by
  show V m c main_arg4 (((cfg0.win 4).blk t).view.emb (ix4 (0 : Fin 1) (0 : Fin 1) i k)) = _
  rw [emb4, V_main_arg4]

/-- The mask array as the region finds it: the argument's bits widened to words by the host conversion. -/
theorem V_mask (c : Dev nD) :
    (V m c main_v0 : S8x8x1024x1024.Idx → BitVec 32) = extui 32 (m ((c : Thread nD τ).loc main_arg3)) natLt_1_32 := by
  dsimp only [V, hostOps0]
  after_results

theorem iblk3_apply (c : Dev nD) (t : Fin cfg0.N) (i j : Fin 1024) :
    (iblk m c 3 t : Vec Ideal S1x1x1024x1024 .i32) (ix4 (0 : Fin 1) (0 : Fin 1) i j)
      = ((m ((c : Thread nD τ).loc main_arg3) : S8x8x1024x1024.Idx → BitVec 1) (ix4 (batchOf t) (headOf t) i j)).setWidth 32 := by
  show V m c main_v0 (((cfg0.win 3).blk t).view.emb (ix4 (0 : Fin 1) (0 : Fin 1) i j)) = _
  rw [emb3, V_mask]
  rfl

/-- The scores of a point's blocks are the scores of its (batch, head) pair. -/
theorem blockScores_eq (c : Dev nD) (t : Fin cfg0.N) :
    blockScores (iblk m c 0 t) (iblk m c 1 t) (iblk m c 4 t) (iblk m c 3 t)
      = scoresOf (m ((c : Thread nD τ).loc main_arg0)) (m ((c : Thread nD τ).loc main_arg1)) (m ((c : Thread nD τ).loc main_arg4)) (m ((c : Thread nD τ).loc main_arg3)) (batchOf t) (headOf t) := by
  have h0 : slab (iblk m c 0 t : Vec Ideal S1x1x1024x32 .f32) (0 : Fin 1) (0 : Fin 1)
      = slab (m ((c : Thread nD τ).loc main_arg0) : S8x8x1024x32.Idx → EReal) (batchOf t) (headOf t) :=
    funext fun i => funext fun d => iblk0_apply m c t i d
  have h1 : slab (iblk m c 1 t : Vec Ideal S1x1x1024x32 .f32) (0 : Fin 1) (0 : Fin 1)
      = slab (m ((c : Thread nD τ).loc main_arg1) : S8x8x1024x32.Idx → EReal) (batchOf t) (headOf t) :=
    funext fun i => funext fun d => iblk1_apply m c t i d
  have h4 : slab (iblk m c 4 t : Vec Ideal S1x1x1024x1024 .f32) (0 : Fin 1) (0 : Fin 1)
      = slab (m ((c : Thread nD τ).loc main_arg4) : S8x8x1024x1024.Idx → EReal) (batchOf t) (headOf t) :=
    funext fun i => funext fun j => iblk4_apply m c t i j
  have hm : blockMask (iblk m c 3 t)
      = slab (m ((c : Thread nD τ).loc main_arg3) : S8x8x1024x1024.Idx → BitVec 1) (batchOf t) (headOf t) :=
    funext fun i => funext fun j => by
      show IntOp.cmpi .ne ((iblk m c 3 t : Vec Ideal S1x1x1024x1024 .i32) (ix4 (0 : Fin 1) (0 : Fin 1) i j)) 0#32 = _
      rw [iblk3_apply]
      exact widened_ne_zero _
  unfold blockScores scoresOf
  rw [h0, h1, h4, hm]

/-! ## What a point writes back -/

/-- Point `t` writes back block `t` of the array of attention probabilities. -/
theorem attnFlushed (c : Dev nD) (t : Fin cfg0.N) :
    (dats m 0 c).flushed 6 t = ((cfg0.win 6).blk t).view.read (Elt Ideal) (attnArr (m ((c : Thread nD τ).loc main_arg0)) (m ((c : Thread nD τ).loc main_arg1)) (m ((c : Thread nD τ).loc main_arg4)) (m ((c : Thread nD τ).loc main_arg3))) := by
  rw [Value.flushed6]
  show (fun y : S1x1x1024x1024.Idx => out0_6 (iblk m c 0 t) (iblk m c 1 t) (iblk m c 2 t) (iblk m c 3 t) (iblk m c 4 t) y)
    = fun y => attnArr (m ((c : Thread nD τ).loc main_arg0)) (m ((c : Thread nD τ).loc main_arg1)) (m ((c : Thread nD τ).loc main_arg4)) (m ((c : Thread nD τ).loc main_arg3)) (((cfg0.win 6).blk t).view.emb y)
  funext y
  obtain ⟨y0, y1, i, j, rfl⟩ : ∃ (y0 y1 : Fin 1) (i j : Fin 1024), y = ix4 y0 y1 i j := ⟨y 0, y 1, y 2, y 3, eq_ix4 y⟩
  obtain rfl : y0 = 0 := Subsingleton.elim _ _
  obtain rfl : y1 = 0 := Subsingleton.elim _ _
  rw [emb6, attnArr_apply]
  refine (attnBlock_apply (iblk m c 0 t) (iblk m c 1 t) (iblk m c 2 t) (iblk m c 3 t) (iblk m c 4 t) i j).trans ?_
  rw [blockScores_eq]

/-- Point `t` writes back block `t` of the array of contexts. -/
theorem ctxFlushed (c : Dev nD) (t : Fin cfg0.N) :
    (dats m 0 c).flushed 5 t = ((cfg0.win 5).blk t).view.read (Elt Ideal) (ctxArr (m ((c : Thread nD τ).loc main_arg0)) (m ((c : Thread nD τ).loc main_arg1)) (m ((c : Thread nD τ).loc main_arg2)) (m ((c : Thread nD τ).loc main_arg4)) (m ((c : Thread nD τ).loc main_arg3))) := by
  rw [Value.flushed5]
  show (fun y : S1x1x1024x32.Idx => out0_5 (iblk m c 0 t) (iblk m c 1 t) (iblk m c 2 t) (iblk m c 3 t) (iblk m c 4 t) y)
    = fun y => ctxArr (m ((c : Thread nD τ).loc main_arg0)) (m ((c : Thread nD τ).loc main_arg1)) (m ((c : Thread nD τ).loc main_arg2)) (m ((c : Thread nD τ).loc main_arg4)) (m ((c : Thread nD τ).loc main_arg3)) (((cfg0.win 5).blk t).view.emb y)
  funext y
  obtain ⟨y0, y1, i, d, rfl⟩ : ∃ (y0 y1 : Fin 1) (i : Fin 1024) (d : Fin 32), y = ix4 y0 y1 i d := ⟨y 0, y 1, y 2, y 3, eq_ix4 y⟩
  obtain rfl : y0 = 0 := Subsingleton.elim _ _
  obtain rfl : y1 = 0 := Subsingleton.elim _ _
  rw [emb5, ctxArr_apply]
  refine (ctxBlock_apply (iblk m c 0 t) (iblk m c 1 t) (iblk m c 2 t) (iblk m c 3 t) (iblk m c 4 t) i d).trans ?_
  have h2 : slab (iblk m c 2 t : Vec Ideal S1x1x1024x32 .f32) (0 : Fin 1) (0 : Fin 1)
      = slab (m ((c : Thread nD τ).loc main_arg2) : S8x8x1024x32.Idx → EReal) (batchOf t) (headOf t) :=
    funext fun i => funext fun d => iblk2_apply m c t i d
  rw [blockScores_eq, h2]

/-! ## The blocks cover the arrays -/

theorem mem_attnBlk (t : Fin cfg0.N) (i : S8x8x1024x1024.Idx) :
    i ∈ ((cfg0.win 6).blk t).view.set ↔ ∀ a : Fin 4, win0_6.index t a * S1x1x1024x1024.size a ≤ (i a).val
      ∧ (i a).val < win0_6.index t a * S1x1x1024x1024.size a + S1x1x1024x1024.size a := by
  show i ∈ ((View.whole main_v1_1).slice (win0_6.rect t)).set ↔ _
  rw [View.set_slice_whole, Rect.mem_set_unit]
  exact Iff.rfl

theorem mem_ctxBlk (t : Fin cfg0.N) (i : S8x8x1024x32.Idx) :
    i ∈ ((cfg0.win 5).blk t).view.set ↔ ∀ a : Fin 4, win0_5.index t a * S1x1x1024x32.size a ≤ (i a).val
      ∧ (i a).val < win0_5.index t a * S1x1x1024x32.size a + S1x1x1024x32.size a := by
  show i ∈ ((View.whole main_v1_0).slice (win0_5.rect t)).set ↔ _
  rw [View.set_slice_whole, Rect.mem_set_unit]
  exact Iff.rfl

/-- Every index of the probabilities array lies in the block of the point of its (batch, head) pair. -/
theorem attnCover (i : S8x8x1024x1024.Idx) :
    ∃ t : Fin cfg0.N, (cfg0.win 6).flush t = true ∧ i ∈ ((cfg0.win 6).blk t).view.set := by
  have hi0 : (i 0).val < 8 := (i 0).isLt
  have hi1 : (i 1).val < 8 := (i 1).isLt
  have hi2 : (i 2).val < 1024 := (i 2).isLt
  have hi3 : (i 3).val < 1024 := (i 3).isLt
  obtain ⟨t, ht⟩ := idx_onto ⟨(i 0).val, hi0⟩ ⟨(i 1).val, hi1⟩
  have q0 : win0_6.index t (0 : Fin 4) = (i 0).val := congrFun ht 0
  have q1 : win0_6.index t (1 : Fin 4) = (i 1).val := congrFun ht 1
  have q2 : win0_6.index t (2 : Fin 4) = 0 := congrFun ht 2
  have q3 : win0_6.index t (3 : Fin 4) = 0 := congrFun ht 3
  refine ⟨t, flush0_6 t, ?_⟩
  rw [mem_attnBlk]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 1 ≤ (i 1).val ∧ (i 1).val < win0_6.index t (1 : Fin 4) * 1 + 1; omega
  | ⟨2, _⟩ => show win0_6.index t (2 : Fin 4) * 1024 ≤ (i 2).val ∧ (i 2).val < win0_6.index t (2 : Fin 4) * 1024 + 1024; omega
  | ⟨3, _⟩ => show win0_6.index t (3 : Fin 4) * 1024 ≤ (i 3).val ∧ (i 3).val < win0_6.index t (3 : Fin 4) * 1024 + 1024; omega

/-- Every index of the context array lies in the block of the point of its (batch, head) pair. -/
theorem ctxCover (i : S8x8x1024x32.Idx) :
    ∃ t : Fin cfg0.N, (cfg0.win 5).flush t = true ∧ i ∈ ((cfg0.win 5).blk t).view.set := by
  have hi0 : (i 0).val < 8 := (i 0).isLt
  have hi1 : (i 1).val < 8 := (i 1).isLt
  have hi2 : (i 2).val < 1024 := (i 2).isLt
  have hi3 : (i 3).val < 32 := (i 3).isLt
  obtain ⟨t, ht⟩ := idx_onto ⟨(i 0).val, hi0⟩ ⟨(i 1).val, hi1⟩
  obtain ⟨-, -, -, -, -, e5, -, -, -, -⟩ := idx_facts t
  have q0 : win0_5.index t (0 : Fin 4) = (i 0).val := by rw [e5]; exact congrFun ht 0
  have q1 : win0_5.index t (1 : Fin 4) = (i 1).val := by rw [e5]; exact congrFun ht 1
  have q2 : win0_5.index t (2 : Fin 4) = 0 := by rw [e5]; exact congrFun ht 2
  have q3 : win0_5.index t (3 : Fin 4) = 0 := by rw [e5]; exact congrFun ht 3
  refine ⟨t, flush0_5 t, ?_⟩
  rw [mem_ctxBlk]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 1024 ≤ (i 2).val ∧ (i 2).val < win0_5.index t (2 : Fin 4) * 1024 + 1024; omega
  | ⟨3, _⟩ => show win0_5.index t (3 : Fin 4) * 32 ≤ (i 3).val ∧ (i 3).val < win0_5.index t (3 : Fin 4) * 32 + 32; omega

/-! ## The arrays after the run -/

/-- The probabilities array after the run. -/
theorem attnFinal (c : Dev nD) : (dats m 0 c).arrAt 6 cfg0.N = attnArr (m ((c : Thread nD τ).loc main_arg0)) (m ((c : Thread nD τ).loc main_arg1)) (m ((c : Thread nD τ).loc main_arg4)) (m ((c : Thread nD τ).loc main_arg3)) :=
  (dats m 0 c).arrAt_eq_of_cover 6 _ (fun t _ => attnFlushed m c t) attnCover

/-- The context array after the run. -/
theorem ctxFinal (c : Dev nD) : (dats m 0 c).arrAt 5 cfg0.N = ctxArr (m ((c : Thread nD τ).loc main_arg0)) (m ((c : Thread nD τ).loc main_arg1)) (m ((c : Thread nD τ).loc main_arg2)) (m ((c : Thread nD τ).loc main_arg4)) (m ((c : Thread nD τ).loc main_arg3)) :=
  (dats m 0 c).arrAt_eq_of_cover 5 _ (fun t _ => ctxFlushed m c t) ctxCover

/-- Every weakly fair execution of the kernel program ends with its two results at the contexts and the attention
    probabilities of the argument arrays, the arguments unchanged. -/
theorem run : θ_run defs (onTc (τ := τ) (main (F := Ideal))) ⟨m, fun _ => 0, ρ⟩ fun r => ∀ c : Dev nD,
      r.2.mem ((c : Thread nD τ).loc main_v1_0) = ctxArr (m ((c : Thread nD τ).loc main_arg0)) (m ((c : Thread nD τ).loc main_arg1)) (m ((c : Thread nD τ).loc main_arg2)) (m ((c : Thread nD τ).loc main_arg4)) (m ((c : Thread nD τ).loc main_arg3))
      ∧ r.2.mem ((c : Thread nD τ).loc main_v1_1) = attnArr (m ((c : Thread nD τ).loc main_arg0)) (m ((c : Thread nD τ).loc main_arg1)) (m ((c : Thread nD τ).loc main_arg4)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (ctxFinal m c), (h c).2.1.trans (attnFinal m c), (h c).2.2⟩)
    (Value.run_blocks m ρ)

end Cert.KernelIdeal.ArrayValue

end
-- ==== Proof.RefAttention.lean ====
/-
  The reference program computes masked softmax attention: each stage of its run, read at an index, is the corresponding
  quantity of `Cert.Attention` for the batch and head the index names.

  The batched contraction over the feature axis is the dot product of a query row and a key row of the slab; the
  reduction over the last axis with a maximum body is the fold of `max` over the score row from −∞, and the further
  maximum with −∞ that follows it changes nothing; the reduction with an add body is zero plus the sum of the row's weights;
  the last contraction runs over the key axis of the probabilities against the value rows.
-/
import proofs.«136659_j37151467110605_2_alg».proof.Proof.Gen.ReferenceIdeal.Read
import proofs.«136659_j37151467110605_2_alg».proof.Proof.Attention

noncomputable section

open scoped BigOperators

namespace Cert.ReferenceIdeal.RefValue

open Cert.ReferenceIdeal Cert.ReferenceIdeal.Gen Cert.ReferenceIdeal.Read Cert.Attention
open Idealize.ShloMosaic Idealize.ShloMosaic.ValueIdx

variable (Q K V : (⟨S8x8x1024x32, .f32⟩ : BufTy).Contents (Elt Ideal))
variable (M : (⟨S8x8x1024x1024, .i1⟩ : BufTy).Contents (Elt Ideal))
variable (R : (⟨S8x8x1024x1024, .f32⟩ : BufTy).Contents (Elt Ideal))

/-- The masked, biased, scaled scores. -/
theorem scores_apply (b h : Fin 8) (i j : Fin 1024) :
    val_main_v4 (F := Ideal) Q K M R (ix4 b h i j) = scoresOf Q K R M b h i j := by
  rw [val_main_v4_apply, val_main_call0_v0_apply, val_main_cst_0_apply, val_main_v3_apply, val_main_v2_apply,
    val_main_v0_apply, val_main_v1_apply, val_main_cst_apply]
  have el : ∀ k : Fin 32, lidx_main_v0 (ix4 b h i j) k = ix4 b h i k := fun k => funext fun a => Fin.ext (by
    match a with | ⟨0, _⟩ => rfl | ⟨1, _⟩ => rfl | ⟨2, _⟩ => rfl | ⟨3, _⟩ => rfl)
  have er : ∀ k : Fin 32, ridx_main_v0 (ix4 b h i j) k = ix4 b h j k := fun k => funext fun a => Fin.ext (by
    match a with | ⟨0, _⟩ => rfl | ⟨1, _⟩ => rfl | ⟨2, _⟩ => rfl | ⟨3, _⟩ => rfl)
  simp only [el, er]
  rfl

/-- The host's reduction with a maximum body over the last axis is the fold of `max` over that axis from −∞. -/
theorem reduce_max_apply (x : S8x8x1024x1024.Idx → EReal) (b h : Fin 8) (i : Fin 1024) :
    Host.reduce (FloatOps.maximumf (F := Ideal) (φ := .f32)) x (constant (F := Ideal) S_ .f32 0xFF800000#32)
        reducesTo_S8x8x1024x1024_S8x8x1024_d3 h_S_ (ix3 b h i)
      = (Finset.univ : Finset (Fin 1024)).fold max (Ideal.ofBits .f32 0xFF800000#32) (fun k => x (ix4 b h i k)) := by
  have hr : S8x8x1024x1024.Reduces [3] S8x8x1024 := by decide
  refine (Host.reduce_eq_fold_single (FloatOps.maximumf (F := Ideal) (φ := .f32)) x _
    reducesTo_S8x8x1024x1024_S8x8x1024_d3 hr h_S_ (ix3 b h i)).trans ?_
  have hf : (x ∘ hr.lift (ix3 b h i)) = fun k : Fin 1024 => x (ix4 b h i k) := funext fun k => congrArg x (funext fun a =>
    Fin.ext (by match a with | ⟨0, _⟩ => rfl | ⟨1, _⟩ => rfl | ⟨2, _⟩ => rfl | ⟨3, _⟩ => rfl))
  rw [hf]
  rfl

/-- The row maxima. -/
theorem rowMax_apply (b h : Fin 8) (i : Fin 1024) :
    val_main_v7 (F := Ideal) Q K M R (ix3 b h i) = rowMax (scoresOf Q K R M b h) i := by
  rw [val_main_v7_apply, val_main_v6_apply, val_main_cst_2_apply]
  unfold val_main_v5 val_main_cst_1
  rw [reduce_max_apply]
  simp only [scores_apply]
  exact max_negInf _

/-- The unnormalized weights. -/
theorem weight_apply (b h : Fin 8) (i j : Fin 1024) :
    val_main_v11 (F := Ideal) Q K M R (ix4 b h i j) = weight (scoresOf Q K R M b h) i j := by
  rw [val_main_v11_apply, val_main_v10_apply, val_main_v9_apply, val_main_v8_apply]
  have e : idx_main_v8 (idx_main_v9 (ix4 b h i j)) = ix3 b h i := funext fun a => Fin.ext (by
    match a with | ⟨0, _⟩ => rfl | ⟨1, _⟩ => rfl | ⟨2, _⟩ => rfl)
  rw [e, rowMax_apply, scores_apply]
  rfl

/-- The row sums of the weights. -/
theorem denom_apply (b h : Fin 8) (i : Fin 1024) :
    val_main_v12 (F := Ideal) Q K M R (ix3 b h i) = ∑ j : Fin 1024, weight (scoresOf Q K R M b h) i j := by
  rw [val_main_v12_apply, val_main_cst_3_apply]
  show Ideal.ofBits .f32 0x00000000#32 + _ = _
  rw [Ideal.ofBits_zero_f32, zero_add]
  refine Finset.sum_congr rfl fun k _ => ?_
  have e : idx_main_v12 (ix3 b h i) k = ix4 b h i k := funext fun a => Fin.ext (by
    match a with | ⟨0, _⟩ => rfl | ⟨1, _⟩ => rfl | ⟨2, _⟩ => rfl | ⟨3, _⟩ => rfl)
  rw [e, weight_apply]

/-- The attention probabilities. -/
theorem prob_apply (b h : Fin 8) (i j : Fin 1024) :
    val_main_v15 (F := Ideal) Q K M R (ix4 b h i j) = prob (scoresOf Q K R M b h) i j := by
  rw [val_main_v15_apply, val_main_v14_apply, val_main_v13_apply]
  have e : idx_main_v13 (idx_main_v14 (ix4 b h i j)) = ix3 b h i := funext fun a => Fin.ext (by
    match a with | ⟨0, _⟩ => rfl | ⟨1, _⟩ => rfl | ⟨2, _⟩ => rfl)
  rw [e, denom_apply, weight_apply]
  rfl

/-- The contexts. -/
theorem context_apply (b h : Fin 8) (i : Fin 1024) (d : Fin 32) :
    val_main_v16 (F := Ideal) Q K V M R (ix4 b h i d) = context (scoresOf Q K R M b h) (slab V b h) i d := by
  rw [val_main_v16_apply]
  refine Finset.sum_congr rfl fun k _ => ?_
  have el : lidx_main_v16 (ix4 b h i d) k = ix4 b h i k := funext fun a => Fin.ext (by
    match a with | ⟨0, _⟩ => rfl | ⟨1, _⟩ => rfl | ⟨2, _⟩ => rfl | ⟨3, _⟩ => rfl)
  have er : ridx_main_v16 (ix4 b h i d) k = ix4 b h k d := funext fun a => Fin.ext (by
    match a with | ⟨0, _⟩ => rfl | ⟨1, _⟩ => rfl | ⟨2, _⟩ => rfl | ⟨3, _⟩ => rfl)
  rw [el, er, prob_apply]
  rfl

/-- The reference's second result is the array of attention probabilities. -/
theorem attn_eq : val_main_v15 (F := Ideal) Q K M R = attnArr Q K R M := by
  funext idx
  obtain ⟨b, h, i, j, rfl⟩ : ∃ (b h : Fin 8) (i j : Fin 1024), idx = ix4 b h i j := ⟨idx 0, idx 1, idx 2, idx 3, eq_ix4 idx⟩
  exact prob_apply Q K M R b h i j

/-- The reference's first result is the array of contexts. -/
theorem ctx_eq : val_main_v16 (F := Ideal) Q K V M R = ctxArr Q K V R M := by
  funext idx
  obtain ⟨b, h, i, d, rfl⟩ : ∃ (b h : Fin 8) (i : Fin 1024) (d : Fin 32), idx = ix4 b h i d := ⟨idx 0, idx 1, idx 2, idx 3, eq_ix4 idx⟩
  exact context_apply Q K V M R b h i d

end Cert.ReferenceIdeal.RefValue

end
-- ==== Proof.lean ====
/-
  A fused attention kernel against its reference: for 8 batches and 8 heads of 1024 positions with 32 features, both
  compute, per (batch, head), the scores Q·Kᵀ times a fixed scale plus a bias, replaced by a fixed large negative fill
  where a boolean mask is set; the softmax of each row of scores (shift by the row's maximum, exponentiate, divide by the
  row's sum); and the product of these probabilities with V. The results are the contexts and the probabilities.

  On the extended reals the two programs are the same function of their arguments, operation for operation
  (`Cert.Attention`): the kernel works one (batch, head) slab per grid point, with matrix products into a zero
  accumulator and lane reductions, where the reference works on the whole arrays with batched contractions and
  reductions over the last axis; the scale, the fill and −∞ are the same words on both sides; the kernel receives the mask
  widened to 32-bit words and tests "≠ 0", which is the mask bit; the reference takes one more maximum with −∞, which
  changes nothing. No entry needs to be finite for this, so the precondition is not used by the value claim.

  The kernel's side is `Cert.KernelIdeal.ArrayValue.run` (the generated frame run with both result arrays named, each
  block identified with a slab of the specification, the blocks covering the arrays); the reference's side is its
  generated run, read stage by stage in `Cert.ReferenceIdeal.RefValue`. The three frames are the generated ones, and
  the idealized kernel is the kernel's own text read on the extended reals (no rewrite to account for).
-/
import proofs.«136659_j37151467110605_2_alg».proof.Defs
import proofs.«136659_j37151467110605_2_alg».proof.Proof.Gen.Kernel
import proofs.«136659_j37151467110605_2_alg».proof.Proof.Gen.Kernel.Skeleton
import proofs.«136659_j37151467110605_2_alg».proof.Proof.Gen.Kernel.Launch
import proofs.«136659_j37151467110605_2_alg».proof.Proof.Gen.Kernel.Points
import proofs.«136659_j37151467110605_2_alg».proof.Proof.Gen.Kernel.Frame
import proofs.«136659_j37151467110605_2_alg».proof.Proof.Gen.KernelIdeal
import proofs.«136659_j37151467110605_2_alg».proof.Proof.Gen.KernelIdeal.Skeleton
import proofs.«136659_j37151467110605_2_alg».proof.Proof.Gen.KernelIdeal.Launch
import proofs.«136659_j37151467110605_2_alg».proof.Proof.Gen.KernelIdeal.Points
import proofs.«136659_j37151467110605_2_alg».proof.Proof.Gen.KernelIdeal.Frame
import proofs.«136659_j37151467110605_2_alg».proof.Proof.Gen.ReferenceIdeal
import proofs.«136659_j37151467110605_2_alg».proof.Proof.Gen.Pre_finite_inputs
import proofs.«136659_j37151467110605_2_alg».proof.Proof.Gen.KernelIdeal.Value
import proofs.«136659_j37151467110605_2_alg».proof.Proof.Gen.ReferenceIdeal.Run
import proofs.«136659_j37151467110605_2_alg».proof.Proof.Gen.ReferenceIdeal.Read
import proofs.«136659_j37151467110605_2_alg».proof.Proof.AttentionArrays
import proofs.«136659_j37151467110605_2_alg».proof.Proof.RefAttention
import Idealize.ShloMosaic.Adequacy
import Idealize.ShloMosaic.Init

noncomputable section

namespace Cert.Proof

open Idealize.ShloMosaic Idealize.SL.Sem Cert.Attention

/-- The kernel as printed runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both idealized programs end with the contexts and the attention probabilities of the (agreeing) arguments. -/
theorem algebraic : Cert.algebraic_KernelIdeal_ReferenceIdeal := by
  intro m ρ m' ρ' _ hagree
  refine ⟨_, _, Cert.KernelIdeal.ArrayValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v16_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))).trans ?_
    refine (Cert.ReferenceIdeal.RefValue.ctx_eq _ _ _ _ _).trans ?_
    rw [(hagree c).1, (hagree c).2.1, (hagree c).2.2.1, (hagree c).2.2.2.1, (hagree c).2.2.2.2]
  · refine (Cert.ReferenceIdeal.Read.val_main_v15_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))).trans ?_
    refine (Cert.ReferenceIdeal.RefValue.attn_eq _ _ _ _).trans ?_
    rw [(hagree c).1, (hagree c).2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
